-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S256x512 : Shape := ⟨2, ![256, 512]⟩
abbrev S_ : Shape := ⟨0, ![]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S32x512x256 .f32) (main_arg1 : FVec F S256x512 .f32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S32x512x256 : Shape := ⟨3, ![32, 512, 256]⟩
abbrev S256x512 : Shape := ⟨2, ![256, 512]⟩
abbrev S16384x256 : Shape := ⟨2, ![16384, 256]⟩
abbrev S16384x32 : Shape := ⟨2, ![16384, 32]⟩
abbrev S1024x256 : Shape := ⟨2, ![1024, 256]⟩
abbrev S1024x32 : Shape := ⟨2, ![1024, 32]⟩
abbrev S1024x512 : Shape := ⟨2, ![1024, 512]⟩
abbrev S1024x32x16 : Shape := ⟨3, ![1024, 32, 16]⟩
abbrev S1024x1x16 : Shape := ⟨3, ![1024, 1, 16]⟩
abbrev S1024x16 : Shape := ⟨2, ![1024, 16]⟩
abbrev S1024 : Shape := ⟨1, ![1024]⟩
abbrev S1024x1 : Shape := ⟨2, ![1024, 1]⟩
abbrev S32x512x32 : Shape := ⟨3, ![32, 512, 32]⟩
abbrev S32x512x288 : Shape := ⟨3, ![32, 512, 288]⟩

abbrev nBuf : Space → Nat
  | .hbm => 6
  | .vmem => 5
  | .smem => 0
  | _ => 0

abbrev bufTy : (tb : Table) → Fin (tcTables nBuf tb) → BufTy
  | .hbm, ⟨0, _⟩ => ⟨S32x512x256, .f32⟩
  | .hbm, ⟨1, _⟩ => ⟨S256x512, .f32⟩
  | .hbm, ⟨2, _⟩ => ⟨S16384x256, .f32⟩
  | .hbm, ⟨3, _⟩ => ⟨S16384x32, .f32⟩
  | .hbm, ⟨4, _⟩ => ⟨S32x512x32, .f32⟩
  | .hbm, ⟨5, _⟩ => ⟨S32x512x288, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1024x32, .f32⟩
  | .local _ .vmem, ⟨4, _⟩ => ⟨S1024x32, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x256_S16384x256 : S32x512x256.ShapeCasts S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S1024x512_S1024x32x16 : S1024x512.ShapeCasts S1024x32x16
  slices_S1024x32x16_o0_0_0_S1024x1x16 : S1024x32x16.Slices ![0, 0, 0] S1024x1x16
  broadcasts_S1024x1x16_S1024x32x16 : S1024x1x16.Broadcasts S1024x32x16
  reduces_S1024x32x16_S1024x16 : S1024x32x16.Reduces [1] S1024x16
  reduces_S1024x16_S1024 : S1024x16.Reduces [1] S1024
  shapeCasts_S1024_S1024x1 : S1024.ShapeCasts S1024x1
  slices_S1024x32x16_o0_1_0_S1024x1x16 : S1024x32x16.Slices ![0, 1, 0] S1024x1x16
  slices_S1024x32x16_o0_2_0_S1024x1x16 : S1024x32x16.Slices ![0, 2, 0] S1024x1x16
  slices_S1024x32x16_o0_3_0_S1024x1x16 : S1024x32x16.Slices ![0, 3, 0] S1024x1x16
  slices_S1024x32x16_o0_4_0_S1024x1x16 : S1024x32x16.Slices ![0, 4, 0] S1024x1x16
  slices_S1024x32x16_o0_5_0_S1024x1x16 : S1024x32x16.Slices ![0, 5, 0] S1024x1x16
  slices_S1024x32x16_o0_6_0_S1024x1x16 : S1024x32x16.Slices ![0, 6, 0] S1024x1x16
  slices_S1024x32x16_o0_7_0_S1024x1x16 : S1024x32x16.Slices ![0, 7, 0] S1024x1x16
  slices_S1024x32x16_o0_8_0_S1024x1x16 : S1024x32x16.Slices ![0, 8, 0] S1024x1x16
  slices_S1024x32x16_o0_9_0_S1024x1x16 : S1024x32x16.Slices ![0, 9, 0] S1024x1x16
  slices_S1024x32x16_o0_10_0_S1024x1x16 : S1024x32x16.Slices ![0, 10, 0] S1024x1x16
  slices_S1024x32x16_o0_11_0_S1024x1x16 : S1024x32x16.Slices ![0, 11, 0] S1024x1x16
  slices_S1024x32x16_o0_12_0_S1024x1x16 : S1024x32x16.Slices ![0, 12, 0] S1024x1x16
  slices_S1024x32x16_o0_13_0_S1024x1x16 : S1024x32x16.Slices ![0, 13, 0] S1024x1x16
  slices_S1024x32x16_o0_14_0_S1024x1x16 : S1024x32x16.Slices ![0, 14, 0] S1024x1x16
  slices_S1024x32x16_o0_15_0_S1024x1x16 : S1024x32x16.Slices ![0, 15, 0] S1024x1x16
  slices_S1024x32x16_o0_16_0_S1024x1x16 : S1024x32x16.Slices ![0, 16, 0] S1024x1x16
  slices_S1024x32x16_o0_17_0_S1024x1x16 : S1024x32x16.Slices ![0, 17, 0] S1024x1x16
  slices_S1024x32x16_o0_18_0_S1024x1x16 : S1024x32x16.Slices ![0, 18, 0] S1024x1x16
  slices_S1024x32x16_o0_19_0_S1024x1x16 : S1024x32x16.Slices ![0, 19, 0] S1024x1x16
  slices_S1024x32x16_o0_20_0_S1024x1x16 : S1024x32x16.Slices ![0, 20, 0] S1024x1x16
  slices_S1024x32x16_o0_21_0_S1024x1x16 : S1024x32x16.Slices ![0, 21, 0] S1024x1x16
  slices_S1024x32x16_o0_22_0_S1024x1x16 : S1024x32x16.Slices ![0, 22, 0] S1024x1x16
  slices_S1024x32x16_o0_23_0_S1024x1x16 : S1024x32x16.Slices ![0, 23, 0] S1024x1x16
  slices_S1024x32x16_o0_24_0_S1024x1x16 : S1024x32x16.Slices ![0, 24, 0] S1024x1x16
  slices_S1024x32x16_o0_25_0_S1024x1x16 : S1024x32x16.Slices ![0, 25, 0] S1024x1x16
  slices_S1024x32x16_o0_26_0_S1024x1x16 : S1024x32x16.Slices ![0, 26, 0] S1024x1x16
  slices_S1024x32x16_o0_27_0_S1024x1x16 : S1024x32x16.Slices ![0, 27, 0] S1024x1x16
  slices_S1024x32x16_o0_28_0_S1024x1x16 : S1024x32x16.Slices ![0, 28, 0] S1024x1x16
  slices_S1024x32x16_o0_29_0_S1024x1x16 : S1024x32x16.Slices ![0, 29, 0] S1024x1x16
  slices_S1024x32x16_o0_30_0_S1024x1x16 : S1024x32x16.Slices ![0, 30, 0] S1024x1x16
  slices_S1024x32x16_o0_31_0_S1024x1x16 : S1024x32x16.Slices ![0, 31, 0] S1024x1x16
  concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x32_d1 : Shape.Concatenates [S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1, S1024x1] S1024x32 1
  inb_S1024x32_S1024x32_0_0 : ∀ a, (![0, 0] : Fin 2 → Nat) a + S1024x32.size a ≤ S1024x32.size a
  h_S1024x32 : 0 < S1024x32.numel
  shapeCasts_S16384x32_S32x512x32 : S16384x32.ShapeCasts S32x512x32
  concatenates_S32x512x256_S32x512x32_S32x512x288_d2 : Shape.Concatenates [S32x512x256, S32x512x32] S32x512x288 2
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S256x512 : Shape := ⟨2, ![256, 512]⟩
abbrev S16384x256 : Shape := ⟨2, ![16384, 256]⟩
abbrev S16384x512 : Shape := ⟨2, ![16384, 512]⟩
abbrev S16384x32x16 : Shape := ⟨3, ![16384, 32, 16]⟩
abbrev S16384x1x32x16 : Shape := ⟨4, ![16384, 1, 32, 16]⟩
abbrev S16384x32x1x16 : Shape := ⟨4, ![16384, 32, 1, 16]⟩
abbrev S16384x32x32x16 : Shape := ⟨4, ![16384, 32, 32, 16]⟩
abbrev S_ : Shape := ⟨0, ![]⟩
abbrev S16384x32 : Shape := ⟨2, ![16384, 32]⟩
abbrev S32x512x32 : Shape := ⟨3, ![32, 512, 32]⟩
abbrev S32x512x288 : Shape := ⟨3, ![32, 512, 288]⟩

abbrev nBuf : Space → Nat
  | .hbm => 19
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S256x512, .f32⟩
  | .hbm, ⟨2, _⟩ => ⟨S16384x256, .f32⟩
  | .hbm, ⟨3, _⟩ => ⟨S16384x512, .f32⟩
  | .hbm, ⟨4, _⟩ => ⟨S16384x32x16, .f32⟩
  | .hbm, ⟨5, _⟩ => ⟨S16384x1x32x16, .f32⟩
  | .hbm, ⟨6, _⟩ => ⟨S16384x32x1x16, .f32⟩
  | .hbm, ⟨7, _⟩ => ⟨S16384x32x32x16, .f32⟩
  | .hbm, ⟨8, _⟩ => ⟨S16384x32x32x16, .f32⟩
  | .hbm, ⟨9, _⟩ => ⟨S16384x32x32x16, .f32⟩
  | .hbm, ⟨10, _⟩ => ⟨S16384x32x32x16, .f32⟩
  | .hbm, ⟨11, _⟩ => ⟨S_, .f32⟩
  | .hbm, ⟨12, _⟩ => ⟨S16384x32x16, .f32⟩
  | .hbm, ⟨13, _⟩ => ⟨S16384x32x16, .f32⟩
  | .hbm, ⟨14, _⟩ => ⟨S16384x32x16, .f32⟩
  | .hbm, ⟨15, _⟩ => ⟨S_, .f32⟩
  | .hbm, ⟨16, _⟩ => ⟨S16384x32, .f32⟩
  | .hbm, ⟨17, _⟩ => ⟨S32x512x32, .f32⟩
  | .hbm, ⟨18, _⟩ => ⟨S32x512x288, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  shapeCasts_S32x512x256_S16384x256 : S32x512x256.ShapeCasts S16384x256
  shapeCasts_S16384x512_S16384x32x16 : S16384x512.ShapeCasts S16384x32x16
  bcast_S16384x32x16_S16384x1x32x16_0_2_3 : S16384x32x16.BroadcastsInDim S16384x1x32x16 (![0, 2, 3] : Fin 3 → Fin S16384x1x32x16.rank)
  bcast_S16384x32x16_S16384x32x1x16_0_1_3 : S16384x32x16.BroadcastsInDim S16384x32x1x16 (![0, 1, 3] : Fin 3 → Fin S16384x32x1x16.rank)
  bcast_S16384x1x32x16_S16384x32x32x16_0_1_2_3 : S16384x1x32x16.BroadcastsInDim S16384x32x32x16 (![0, 1, 2, 3] : Fin 4 → Fin S16384x32x32x16.rank)
  bcast_S16384x32x1x16_S16384x32x32x16_0_1_2_3 : S16384x32x1x16.BroadcastsInDim S16384x32x32x16 (![0, 1, 2, 3] : Fin 4 → Fin S16384x32x32x16.rank)
  reducesTo_S16384x32x32x16_S16384x32x16_d2 : S16384x32x32x16.ReducesTo [2] S16384x32x16
  h_S_ : 0 < S_.numel
  reducesTo_S16384x32x16_S16384x32_d2 : S16384x32x16.ReducesTo [2] S16384x32
  shapeCasts_S16384x32_S32x512x32 : S16384x32.ShapeCasts S32x512x32
  concatenates_S32x512x256_S32x512x32_S32x512x288_d2 : Shape.Concatenates [S32x512x256, S32x512x32] S32x512x288 2
  dot_S16384x256_S256x512_S16384x512_1_0_0_1_n_n_wf : DotDims.WF S16384x256 S256x512 S16384x512 [1] [0] [0] [1] [] []

variable [Facts₀]

def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf

class Facts : Prop extends Facts₀ where

variable [Facts]
-- ==== Proof.Spec.lean ====
/-
  The feature map both programs compute, on the extended reals.

  A sample is a row of 256 numbers. It is projected by a `256 × 512` matrix `T` onto 32 "kernels" of 16
  coordinates each: coordinate `d` of kernel `b` is column `16 b + d` of the product. Feature `a` of the
  sample is

      ∑ d, exp (− ∑ b, |proj b d − proj a d|)

  — per coordinate the L1 distance from kernel `a` to every kernel, negated, exponentiated, summed
  over the 16 coordinates. A feature depends on ONE row of the samples' matrix only, which is why a
  block of rows may be treated on its own.
-/
import Idealize.ShloMosaic.Lib.ValueIdx
import Idealize.ShloMosaic.PureOps.Ideal

noncomputable section

open scoped BigOperators

namespace Cert.Mbd

open Idealize.ShloMosaic Idealize.ShloMosaic.ValueIdx

/-- Column `16 b + d` of the projection matrix: coordinate `d` of kernel `b`. -/
abbrev slot (b : Fin 32) (d : Fin 16) : Fin 512 := ⟨b.val * 16 + d.val, by omega⟩

/-- Coordinate `d` of kernel `b` of a sample's projection. -/
def projRow (row : Fin 256 → EReal) (T : (⟨2, ![256, 512]⟩ : Shape).Idx → EReal) (b : Fin 32) (d : Fin 16) : EReal :=
  ∑ k : Fin 256, row k * T (ix2 k (slot b d))

/-- The L1 distance, along coordinate `d`, from kernel `a` to all kernels (`|z|` spelt `max z (−z)`). -/
def spread (row : Fin 256 → EReal) (T : (⟨2, ![256, 512]⟩ : Shape).Idx → EReal) (a : Fin 32) (d : Fin 16) : EReal :=
  ∑ b : Fin 32, max (projRow row T b d - projRow row T a d) (-(projRow row T b d - projRow row T a d))

/-- Feature `a` of a sample. -/
def featRow (row : Fin 256 → EReal) (T : (⟨2, ![256, 512]⟩ : Shape).Idx → EReal) (a : Fin 32) : EReal :=
  ∑ d : Fin 16, Ideal.exp (-(spread row T a d))

/-- The features of `N` samples, one row each. -/
def feats {N : ℕ} (x : (⟨2, ![N, 256]⟩ : Shape).Idx → EReal) (T : (⟨2, ![256, 512]⟩ : Shape).Idx → EReal) :
    (⟨2, ![N, 32]⟩ : Shape).Idx → EReal :=
  fun i => featRow (fun k => x (ix2 (i 0) k)) T (i 1)

theorem feats_apply {N : ℕ} (x : (⟨2, ![N, 256]⟩ : Shape).Idx → EReal) (T : (⟨2, ![256, 512]⟩ : Shape).Idx → EReal)
    (n : Fin N) (a : Fin 32) : feats x T (ix2 n a) = featRow (fun k => x (ix2 n k)) T a := rfl

end Cert.Mbd

end
-- ==== Proof.RefFeatures.lean ====
/-
  The reference computes the feature map: its `[16384, 32]` array of sums (the stage before the final
  reshape and join) is `feats` of the flattened samples and the projection matrix.

  Read one operation at a time: the flattened product `[16384, 512]` viewed as `[16384, 32, 16]` puts
  coordinate `d` of kernel `b` at column `16 b + d`; the two broadcasts place `M[n, b, d]` and
  `M[n, a, d]` at position `(n, a, b, d)` of a `[16384, 32, 32, 16]` array; their difference's absolute
  value is summed over `b`, negated, exponentiated, and summed over `d`. Both sums start from the zero
  pattern, which adds nothing.
-/
import proofs.«150669_j68582037782886_2_alg».proof.Proof.Gen.ReferenceIdeal.Read
import proofs.«150669_j68582037782886_2_alg».proof.Proof.Spec

noncomputable section

open scoped BigOperators

namespace Cert.Mbd.Ref

open Cert.ReferenceIdeal Cert.ReferenceIdeal.Read Idealize.ShloMosaic Idealize.ShloMosaic.ValueIdx

variable (x0 : (⟨S32x512x256, .f32⟩ : BufTy).Contents (Elt Ideal)) (x1 : (⟨S256x512, .f32⟩ : BufTy).Contents (Elt Ideal))

/-- Sample `n`: row `n` of the flattened samples. -/
abbrev row (n : Fin 16384) : Fin 256 → EReal := fun k => val_main_v0 (F := Ideal) x0 (ix2 n k)

/-- Entry `(n, b, d)` of the product viewed as `[16384, 32, 16]` is coordinate `d` of kernel `b` of sample `n`. -/
theorem proj_apply (n : Fin 16384) (b : Fin 32) (d : Fin 16) :
    val_main_v2 (F := Ideal) x0 x1 (ix3 n b d) = projRow (row x0 n) x1 b d := by
  have hn := n.isLt
  have hb := b.isLt
  have hd := d.isLt
  rw [val_main_v2_apply]
  have e : idx_main_v2 (ix3 n b d) = ix2 n (slot b d) := funext fun a => Fin.ext (by
    match a with
    | ⟨0, _⟩ => show ((n.val * 32 + b.val) * 16 + d.val) / 512 = n.val; omega
    | ⟨1, _⟩ => show ((n.val * 32 + b.val) * 16 + d.val) % 512 = b.val * 16 + d.val; omega)
  rw [e, val_main_v1_apply]
  unfold projRow
  refine Finset.sum_congr rfl fun k _ => ?_
  have el : lidx_main_v1 (ix2 n (slot b d)) k = ix2 n k :=
    funext fun a => Fin.ext (by match a with | ⟨0, _⟩ => rfl | ⟨1, _⟩ => rfl)
  have er : ridx_main_v1 (ix2 n (slot b d)) k = ix2 k (slot b d) :=
    funext fun a => Fin.ext (by match a with | ⟨0, _⟩ => rfl | ⟨1, _⟩ => rfl)
  rw [el, er]

/-- Position `(n, a, b, d)` of the absolute differences: kernel `b` against kernel `a` along coordinate `d`. -/
theorem absdiff_apply (n : Fin 16384) (a b : Fin 32) (d : Fin 16) :
    val_main_v8 (F := Ideal) x0 x1 (ix4 n a b d)
      = max (projRow (row x0 n) x1 b d - projRow (row x0 n) x1 a d) (-(projRow (row x0 n) x1 b d - projRow (row x0 n) x1 a d)) := by
  rw [val_main_v8_apply, val_main_v7_apply, val_main_v5_apply, val_main_v3_apply, val_main_v6_apply, val_main_v4_apply]
  have e5 : idx_main_v3 (idx_main_v5 (ix4 n a b d)) = ix3 n b d :=
    funext fun ax => Fin.ext (by match ax with | ⟨0, _⟩ => rfl | ⟨1, _⟩ => rfl | ⟨2, _⟩ => rfl)
  have e6 : idx_main_v4 (idx_main_v6 (ix4 n a b d)) = ix3 n a d :=
    funext fun ax => Fin.ext (by match ax with | ⟨0, _⟩ => rfl | ⟨1, _⟩ => rfl | ⟨2, _⟩ => rfl)
  rw [e5, e6, proj_apply, proj_apply]
  rfl

/-- The sum over `b` at `(n, a, d)`: the L1 distance from kernel `a` to all kernels along coordinate `d`. -/
theorem spread_apply (n : Fin 16384) (a : Fin 32) (d : Fin 16) :
    val_main_v9 (F := Ideal) x0 x1 (ix3 n a d) = spread (row x0 n) x1 a d := by
  rw [val_main_v9_apply]
  show Ideal.ofBits .f32 0x00000000#32 + _ = _
  rw [Ideal.ofBits_zero_f32, zero_add]
  unfold spread
  refine Finset.sum_congr rfl fun b _ => ?_
  have e : idx_main_v9 (ix3 n a d) b = ix4 n a b d :=
    funext fun ax => Fin.ext (by match ax with | ⟨0, _⟩ => rfl | ⟨1, _⟩ => rfl | ⟨2, _⟩ => rfl | ⟨3, _⟩ => rfl)
  rw [e, absdiff_apply]

/-- The reference's array of sums over `d` is the feature map of the flattened samples. -/
theorem features_eq :
    val_main_v12 (F := Ideal) x0 x1 = feats (N := 16384) (val_main_v0 (F := Ideal) x0) x1 := by
  funext i
  obtain ⟨n, a, rfl⟩ : ∃ (n : Fin 16384) (a : Fin 32), i = ix2 n a := ⟨i 0, i 1, eq_ix2 i⟩
  rw [val_main_v12_apply, feats_apply]
  show Ideal.ofBits .f32 0x00000000#32 + _ = _
  rw [Ideal.ofBits_zero_f32, zero_add]
  unfold featRow
  refine Finset.sum_congr rfl fun d _ => ?_
  have e : idx_main_v12 (ix2 n a) d = ix3 n a d :=
    funext fun ax => Fin.ext (by match ax with | ⟨0, _⟩ => rfl | ⟨1, _⟩ => rfl | ⟨2, _⟩ => rfl)
  rw [e, val_main_v11_apply, val_main_v10_apply, spread_apply]
  rfl

end Cert.Mbd.Ref

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.LibSumAxis.lean ====
/-
  A kernel-side `vector.multi_reduction <add>` of an `[a, b, c]` array of f32 read at an index, at the
  ideal instance: along the last axis, entry `(p, q)` of the result is the sum over `k` of the entries
  `(p, q, k)`; along the middle axis, entry `(p, r)` is the sum over `k` of the entries `(p, k, r)`.
  The accumulator is the zero pattern, the sum's neutral element, so no initial term appears.
-/
import Idealize.ShloMosaic.Lib.ValueIdx
import Idealize.ShloMosaic.PureOps.Ideal.Laws

noncomputable section

open scoped BigOperators

namespace Cert.SumAxis

open Idealize.ShloMosaic Idealize.ShloMosaic.ValueIdx

/-- The sum along the last axis, at `(p, q)`. -/
theorem sumLast_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec (FTy.bits .f32)) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src _ h hφ hacc (ix2 p q)).trans ?_
  show ∑ k : Fin c, src (h.lift (ix2 p q) k) = _
  exact Finset.sum_congr rfl fun k _ => congrArg src
    (funext fun ax => Fin.ext (by match ax with | ⟨0, _⟩ => rfl | ⟨1, _⟩ => rfl | ⟨2, _⟩ => rfl))

/-- The sum along the middle axis, at `(p, r)`. -/
theorem sumMid_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec (FTy.bits .f32)) = FKind.add.neutral .f32 hφ) (p : Fin a) (r : Fin c) :
    multiReduction .add [1] ⟨2, ![a, c]⟩ src 0x00000000#32 h hφ hacc (ix2 p r) = ∑ k : Fin b, src (ix3 p k r) := by
  refine (Ideal.multiReduction_add_single src _ h hφ hacc (ix2 p r)).trans ?_
  show ∑ k : Fin b, src (h.lift (ix2 p r) k) = _
  exact Finset.sum_congr rfl fun k _ => congrArg src
    (funext fun ax => Fin.ext (by match ax with | ⟨0, _⟩ => rfl | ⟨1, _⟩ => rfl | ⟨2, _⟩ => rfl))

end Cert.SumAxis

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibTrailingSplit.lean ====
/-
  The trailing axis of an `[a, b * c]` matrix split in two: viewed as an `[a, b, c]` array, entry
  `(p, q, r)` is the matrix at row `p`, column `q * c + r` (the columns are laid out `b` groups of `c`).
-/
import Idealize.ShloMosaic.Lib.Pipeline.Value
import Idealize.ShloMosaic.Lib.ValueIdx

noncomputable section

namespace Cert.TrailingSplit

open Idealize.ShloMosaic Idealize.ShloMosaic.ValueIdx

variable {α : Type}

/-- Column `q * c + r` lies among the `m = b * c` columns. -/
theorem merged_lt {b c m : ℕ} (hm : m = b * c) (q : Fin b) (r : Fin c) : q.val * c + r.val < m := by
  have hq := q.isLt
  have hr := r.isLt
  have : q.val * c + r.val < (q.val + 1) * c := by rw [Nat.add_mul, Nat.one_mul]; omega
  exact hm ▸ Nat.lt_of_lt_of_le this (Nat.mul_le_mul_right c hq)

/-- The column of the matrix that holds position `r` of group `q`. -/
abbrev merged {b c m : ℕ} (hm : m = b * c) (q : Fin b) (r : Fin c) : Fin m := ⟨q.val * c + r.val, merged_lt hm q r⟩

/-- An `[a, b * c]` matrix viewed as `[a, b, c]` reads, at `(p, q, r)`, row `p` at column `q * c + r`. -/
theorem shapeCast_am_abc_apply {a b c m : ℕ} (hm : m = b * c) (x : (⟨2, ![a, m]⟩ : Shape).Idx → α)
    (h : (⟨2, ![a, m]⟩ : Shape).ShapeCasts ⟨3, ![a, b, c]⟩) (p : Fin a) (q : Fin b) (r : Fin c) :
    shapeCast ⟨3, ![a, b, c]⟩ x h (ix3 p q r) = x (ix2 p (merged hm q r)) :=
  shapeCast_apply x h _ _ (by
    rw [Shape.rowMajor_val_two, Shape.rowMajor_val_three]
    show p.val * m + (q.val * c + r.val) = (p.val * b + q.val) * c + r.val
    subst hm
    rw [Nat.add_mul, Nat.mul_assoc, Nat.add_assoc])

end Cert.TrailingSplit

end
-- ==== Proof.KernelColumn.lean ====
/-
  One column of the kernel's output block, read at a row.

  The body first forms the block's projections `m`, a `[1024, 32, 16]` array: the product of the
  block's 1024 samples with the projection matrix (the changes of float format are the identity on the
  extended reals, and the accumulator starts at zero), with column `16 b + d` of the product placed at
  `(b, d)`. For kernel `i` it then takes row `i` of `m` (a slice of extent one along the middle axis),
  spreads it over the 32 kernels, subtracts, takes absolute values, sums over the kernels (the middle
  axis), subtracts the result from zero, exponentiates, and sums over the 16 coordinates: a `[1024, 1]`
  column whose entry at row `p` is `∑ d, exp (0 − ∑ b, |m (p, b, d) − m (p, i, d)|)`.
-/
import proofs.«150669_j68582037782886_2_alg».proof.Proof.Gen.KernelIdeal.Skeleton
import proofs.«150669_j68582037782886_2_alg».proof.Proof.Spec
import proofs.«150669_j68582037782886_2_alg».proof.Proof.LibMatmul
import proofs.«150669_j68582037782886_2_alg».proof.Proof.LibRank3
import proofs.«150669_j68582037782886_2_alg».proof.Proof.LibSumAxis
import proofs.«150669_j68582037782886_2_alg».proof.Proof.LibColumns
import proofs.«150669_j68582037782886_2_alg».proof.Proof.LibTrailingSplit
import Idealize.ShloMosaic.Lib.Pipeline.Value
import Idealize.ShloMosaic.Lib.ValueIdx
import Idealize.ShloMosaic.PureOps.Ideal.Laws

noncomputable section

open scoped BigOperators

namespace Cert.Mbd.Kernel

open Cert.KernelIdeal Cert.KernelIdeal.Gen Idealize.ShloMosaic Idealize.ShloMosaic.ValueIdx

variable {F : FTy → Type} [FloatOps F]

/-- The absolute differences of every kernel's projection against the kernel cut out at offsets `o`. -/
def absDiffs (o : Fin 3 → Nat) (hs : S1024x32x16.Slices o S1024x1x16) (v6 : FVec F S1024x32x16 .f32) : FVec F S1024x32x16 .f32 :=
  absf (subf v6 (broadcastTo S1024x32x16 (extractStridedSlice S1024x1x16 o v6 hs) broadcasts_S1024x1x16_S1024x32x16))

/-- The column made of an array of absolute differences: summed over the kernels, subtracted from zero,
    exponentiated, summed over the coordinates. -/
def colOf (ad : FVec F S1024x32x16 .f32) : FVec F S1024x1 .f32 :=
  shapeCast S1024x1
    (multiReduction .add [1] S1024
      (exp (subf (broadcast S1024x16 (Scalar.ofBits .f32 0x00000000#32))
        (multiReduction .add [1] S1024x16 ad 0x00000000#32 reduces_S1024x32x16_S1024x16 (.inl rfl) rfl)))
      0x00000000#32 reduces_S1024x16_S1024 (.inl rfl) rfl)
    shapeCasts_S1024_S1024x1

/-- The column of the kernel cut out at offsets `o`. -/
def column (o : Fin 3 → Nat) (hs : S1024x32x16.Slices o S1024x1x16) (v6 : FVec F S1024x32x16 .f32) : FVec F S1024x1 .f32 :=
  colOf (absDiffs o hs v6)

/-- A slice of extent one along the middle axis fits at every kernel number. -/
theorem slices_at (i : Fin 32) : S1024x32x16.Slices ![0, i.val, 0] S1024x1x16 :=
  ⟨rfl, fun a => by
    have hi := i.isLt
    match a with
    | ⟨0, _⟩ => show 0 + 1024 ≤ 1024; omega
    | ⟨1, _⟩ => show i.val + 1 ≤ 32; omega
    | ⟨2, _⟩ => show 0 + 16 ≤ 16; omega⟩

/-- A sum along the rows of an `[a, b]` matrix (zero accumulator) at row `p`. -/
theorem sumRow_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec (FTy.bits .f32)) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  show ∑ k : Fin b, src (h.lift (ix1 p) k) = _
  exact Finset.sum_congr rfl fun k _ => congrArg src (Cert.Columns.lift_row h p k)

/-- The differences against kernel `i` at `(p, b, d)`. -/
theorem absDiffs_apply (i : Fin 32) (hs : S1024x32x16.Slices ![0, i.val, 0] S1024x1x16) (v6 : FVec Ideal S1024x32x16 .f32)
    (p : Fin 1024) (b : Fin 32) (d : Fin 16) :
    absDiffs ![0, i.val, 0] hs v6 (ix3 p b d)
      = max (v6 (ix3 p b d) - v6 (ix3 p i d)) (-(v6 (ix3 p b d) - v6 (ix3 p i d))) := by
  have hb : broadcastTo S1024x32x16 (extractStridedSlice S1024x1x16 ![0, i.val, 0] v6 hs) broadcasts_S1024x1x16_S1024x32x16 (ix3 p b d)
      = v6 (ix3 p i d) :=
    (Cert.Rank3.broadcastTo_a1c_abc_apply _ _ p b d).trans
      (extractStridedSlice_apply _ v6 hs _ (ix3 p i d) fun a => by
        match a with
        | ⟨0, _⟩ => show p.val = 0 + p.val; omega
        | ⟨1, _⟩ => show i.val = i.val + 0; omega
        | ⟨2, _⟩ => show d.val = 0 + d.val; omega)
  exact congrArg (fun z => max (v6 (ix3 p b d) - z) (-(v6 (ix3 p b d) - z))) hb

/-- The column of a differences array at row `p`. -/
theorem colOf_apply (ad : FVec Ideal S1024x32x16 .f32) (p : Fin 1024) (u : Fin 1) :
    colOf ad (ix2 p u) = ∑ d : Fin 16, Ideal.exp (-(∑ b : Fin 32, ad (ix3 p b d))) := by
  unfold colOf
  refine (Cert.Columns.shapeCast_a_a1_apply _ _ p u).trans ?_
  refine (sumRow_apply _ _ _ _ p).trans ?_
  refine Finset.sum_congr rfl fun d _ => ?_
  show Ideal.exp (Ideal.ofBits .f32 0x00000000#32 - _) = _
  rw [Ideal.ofBits_zero_f32, zero_sub]
  exact congrArg (fun z => Ideal.exp (-z)) (Cert.SumAxis.sumMid_apply ad _ _ _ p d)

/-- Entry `p` of kernel `i`'s column. -/
theorem column_apply (i : Fin 32) (hs : S1024x32x16.Slices ![0, i.val, 0] S1024x1x16) (v6 : FVec Ideal S1024x32x16 .f32)
    (p : Fin 1024) (u : Fin 1) :
    column ![0, i.val, 0] hs v6 (ix2 p u)
      = ∑ d : Fin 16, Ideal.exp (-(∑ b : Fin 32, max (v6 (ix3 p b d) - v6 (ix3 p i d)) (-(v6 (ix3 p b d) - v6 (ix3 p i d))))) := by
  unfold column
  rw [colOf_apply]
  refine Finset.sum_congr rfl fun d _ => ?_
  refine congrArg (fun z => Ideal.exp (-z)) (Finset.sum_congr rfl fun b _ => ?_)
  exact absDiffs_apply i hs v6 p b d

/-! ## The block's projections -/

theorem dot_l0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
theorem dot_l1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem dot_r0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem dot_r1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- Entry `(p, b, d)` of the block's projections is coordinate `d` of kernel `b` of the block's sample `p`. -/
theorem proj_apply (x0 : Vec Ideal S1024x256 .f32) (x1 : Vec Ideal S256x512 .f32) (p : Fin 1024) (b : Fin 32) (d : Fin 16) :
    k0_pay2 x0 x1 (ix3 p b d) = projRow (fun k => x0 (ix2 p k)) x1 b d := by
  unfold k0_pay2
  refine (Cert.TrailingSplit.shapeCast_am_abc_apply (a := 1024) (b := 32) (c := 16) (m := 512) rfl _ _ p b d).trans ?_
  refine (Cert.PlainDot.matmul_zero_apply dot_S1024x256_S256x512_S1024x512_1_0_0_1_n_n none rfl rfl dot_l0 dot_l1 dot_r0 dot_r1
    _ _ p (Cert.TrailingSplit.merged (b := 32) (c := 16) (m := 512) rfl b d)).trans ?_
  unfold projRow
  refine Finset.sum_congr rfl fun k _ => ?_
  show shapeCast S1024x256 x0 shapeCasts_S1024x256_S1024x256 (ix2 p k) * x1 (ix2 k (slot b d)) = _
  rw [shapeCast_self]

end Cert.Mbd.Kernel

end
-- ==== Proof.LibColumnsJoin.lean ====
/-
  Columns set side by side: `n` columns of shape `[a, 1]` joined along axis 1 into an `[a, n]` matrix
  read, at `(p, c)`, column `c` at row `p`. Every piece has extent one along the joined axis, so the
  pieces before column `c` take up exactly `c` positions.
-/
import Idealize.ShloMosaic.Lib.Pipeline.Value
import Idealize.ShloMosaic.Lib.ValueIdx

noncomputable section

namespace Cert.ColumnsJoin

open Idealize.ShloMosaic Idealize.ShloMosaic.ValueIdx

variable {α : Type}

/-- The extents along axis 1 of a list of `[a, 1]` columns add up to the number of columns. -/
theorem extents_sum {a n : ℕ} (l : List ((s : Shape) × (s.Idx → α))) (hl : ∀ x ∈ l, x.1 = (⟨2, ![a, 1]⟩ : Shape)) :
    (((l.map (·.1)).map fun s : Shape =>
      if h : s.rank = (⟨2, ![a, n]⟩ : Shape).rank then s.size ((1 : Fin (⟨2, ![a, n]⟩ : Shape).rank).cast h.symm) else 0).sum) = l.length := by
  induction l with
  | nil => rfl
  | cons x l ih =>
    have hx : x.1 = (⟨2, ![a, 1]⟩ : Shape) := hl x (List.mem_cons_self ..)
    have ih' := ih fun y hy => hl y (List.mem_cons_of_mem _ hy)
    simp only [List.map_cons, List.sum_cons, List.length_cons]
    rw [ih', hx, dif_pos rfl]
    show 1 + l.length = l.length + 1
    omega

/-- `n` columns joined along axis 1, read at `(p, c)`: column `c` at row `p`. -/
theorem join_columns_apply {a n : ℕ} (col : Fin n → (⟨2, ![a, 1]⟩ : Shape).Idx → α)
    (h : Shape.Concatenates ((List.ofFn fun k : Fin n => (⟨⟨2, ![a, 1]⟩, col k⟩ : (s : Shape) × (s.Idx → α))).map (·.1)) ⟨2, ![a, n]⟩ 1)
    (p : Fin a) (c : Fin n) :
    concatenate ⟨2, ![a, n]⟩ 1 (List.ofFn fun k : Fin n => (⟨⟨2, ![a, 1]⟩, col k⟩ : (s : Shape) × (s.Idx → α))) h (ix2 p c)
      = col c (ix2 p (0 : Fin 1)) := by
  refine concatenate_apply_piece (1 : Fin 2) _ h (ix2 p c) c.val (by rw [List.length_ofFn]; exact c.isLt)
    ⟨2, ![a, 1]⟩ (col c) (by rw [List.getElem_ofFn]) rfl c.val ?_ (ix2 p (0 : Fin 1)) ?_ ?_
  · rw [extents_sum (a := a) (n := n) _ fun x hx => ?_, List.length_take, List.length_ofFn]
    · exact Nat.min_eq_left (Nat.le_of_lt c.isLt)
    · obtain ⟨k, rfl⟩ := (List.mem_ofFn' _ _).mp (List.mem_of_mem_take hx)
      rfl
  · intro b hb
    match b with
    | ⟨0, _⟩ => rfl
    | ⟨1, _⟩ => exact absurd rfl hb
  · show c.val + 0 = c.val
    rfl

end Cert.ColumnsJoin

end
-- ==== Proof.KernelBlock.lean ====
/-
  The kernel body's result for one block of 1024 samples.

  The body stores ONE value: 32 columns of shape `[1024, 1]` set side by side, column `i` being kernel
  `i`'s column of the block's projections (the last of them finished inside the stored value itself,
  from the last kernel's absolute differences). Read at `(p, a)` the stored value is therefore column
  `a` at row `p`, which is feature `a` of the block's sample `p`.
-/
import proofs.«150669_j68582037782886_2_alg».proof.Proof.Gen.KernelIdeal.Frame
import proofs.«150669_j68582037782886_2_alg».proof.Proof.KernelColumn
import proofs.«150669_j68582037782886_2_alg».proof.Proof.LibColumnsJoin

noncomputable section

open scoped BigOperators

namespace Cert.Mbd.Kernel

open Cert.KernelIdeal Cert.KernelIdeal.Gen Idealize.ShloMosaic Idealize.ShloMosaic.ValueIdx

variable {F : FTy → Type} [FloatOps F]

/-- The 32 columns the body joins, in order, as the body's own terms of the two loaded blocks. -/
def cols (x0 : Vec F S1024x256 .f32) (x1 : Vec F S256x512 .f32) : Fin 32 → FVec F S1024x1 .f32 :=
  ![k0_pay3 x0 x1,
    k0_pay4 x0 x1,
    k0_pay5 x0 x1,
    k0_pay8 (k0_pay6 x0 x1) (k0_pay7 (F := F)),
    k0_pay9 (k0_pay2 x0 x1),
    k0_pay10 (k0_pay2 x0 x1),
    k0_pay11 (k0_pay2 x0 x1),
    k0_pay12 (k0_pay2 x0 x1),
    k0_pay14 (k0_pay13 (k0_pay2 x0 x1)),
    k0_pay15 (k0_pay2 x0 x1),
    k0_pay16 (k0_pay2 x0 x1),
    k0_pay17 (k0_pay2 x0 x1),
    k0_pay19 (k0_pay18 (k0_pay2 x0 x1)),
    k0_pay20 (k0_pay2 x0 x1),
    k0_pay21 (k0_pay2 x0 x1),
    k0_pay22 (k0_pay2 x0 x1),
    k0_pay23 (k0_pay2 x0 x1),
    k0_pay25 (k0_pay24 (k0_pay2 x0 x1)),
    k0_pay26 (k0_pay2 x0 x1),
    k0_pay27 (k0_pay2 x0 x1),
    k0_pay28 (k0_pay2 x0 x1),
    k0_pay29 (k0_pay2 x0 x1),
    k0_pay31 (k0_pay2 x0 x1) (k0_pay30 (k0_pay2 x0 x1)),
    k0_pay32 (k0_pay2 x0 x1),
    k0_pay33 (k0_pay2 x0 x1),
    k0_pay34 (k0_pay2 x0 x1),
    k0_pay36 (k0_pay35 (k0_pay2 x0 x1)),
    k0_pay37 (k0_pay2 x0 x1),
    k0_pay38 (k0_pay2 x0 x1),
    k0_pay39 (k0_pay2 x0 x1),
    k0_pay40 (k0_pay2 x0 x1),
    colOf (k0_pay41 (k0_pay2 x0 x1))]

/-- Each of them is the column of its kernel number: the same operations on the block's projections,
    cut at row `i` of the kernels' axis. -/
theorem cols_eq (x0 : Vec F S1024x256 .f32) (x1 : Vec F S256x512 .f32) (i : Fin 32) :
    cols x0 x1 i = column ![0, i.val, 0] (slices_at i) (k0_pay2 x0 x1) := by
  fin_cases i <;> rfl

/-- The stored value at `(p, a)`: column `a` at row `p`. -/
theorem stored_apply (c0 : FVec Ideal S1024x1 .f32) (c1 : FVec Ideal S1024x1 .f32) (c2 : FVec Ideal S1024x1 .f32) (c3 : FVec Ideal S1024x1 .f32) (c4 : FVec Ideal S1024x1 .f32) (c5 : FVec Ideal S1024x1 .f32) (c6 : FVec Ideal S1024x1 .f32) (c7 : FVec Ideal S1024x1 .f32) (c8 : FVec Ideal S1024x1 .f32) (c9 : FVec Ideal S1024x1 .f32) (c10 : FVec Ideal S1024x1 .f32) (c11 : FVec Ideal S1024x1 .f32) (c12 : FVec Ideal S1024x1 .f32) (c13 : FVec Ideal S1024x1 .f32) (c14 : FVec Ideal S1024x1 .f32) (c15 : FVec Ideal S1024x1 .f32) (c16 : FVec Ideal S1024x1 .f32) (c17 : FVec Ideal S1024x1 .f32) (c18 : FVec Ideal S1024x1 .f32) (c19 : FVec Ideal S1024x1 .f32) (c20 : FVec Ideal S1024x1 .f32) (c21 : FVec Ideal S1024x1 .f32) (c22 : FVec Ideal S1024x1 .f32) (c23 : FVec Ideal S1024x1 .f32) (c24 : FVec Ideal S1024x1 .f32) (c25 : FVec Ideal S1024x1 .f32) (c26 : FVec Ideal S1024x1 .f32) (c27 : FVec Ideal S1024x1 .f32) (c28 : FVec Ideal S1024x1 .f32) (c29 : FVec Ideal S1024x1 .f32) (c30 : FVec Ideal S1024x1 .f32)
    (ad : FVec Ideal S1024x32x16 .f32) (p : Fin 1024) (a : Fin 32) :
    k0_pay1 c0 c1 c2 c3 c4 c5 c6 c7 c8 c9 c10 c11 c12 c13 c14 c15 c16 c17 c18 c19 c20 c21 c22 c23 c24 c25 c26 c27 c28 c29 c30 ad (ix2 p a)
      = (![c0, c1, c2, c3, c4, c5, c6, c7, c8, c9, c10, c11, c12, c13, c14, c15, c16, c17, c18, c19, c20, c21, c22, c23, c24, c25, c26, c27, c28, c29, c30, colOf ad] : Fin 32 → FVec Ideal S1024x1 .f32) a (ix2 p (0 : Fin 1)) := by
  unfold k0_pay1
  exact Cert.ColumnsJoin.join_columns_apply (a := 1024) (n := 32) ![c0, c1, c2, c3, c4, c5, c6, c7, c8, c9, c10, c11, c12, c13, c14, c15, c16, c17, c18, c19, c20, c21, c22, c23, c24, c25, c26, c27, c28, c29, c30, colOf ad] _ p a

theorem hz : (![0, 0] : Fin 2 → Nat) = fun _ => 0 := funext fun a => by fin_cases a <;> rfl

/-- The body's result at `(p, a)` is feature `a` of the block's sample `p`. -/
theorem block_apply (x0 : Vec Ideal S1024x256 .f32) (x1 : Vec Ideal S256x512 .f32) (p : Fin 1024) (a : Fin 32) :
    out0_2 x0 x1 (ix2 p a) = featRow (fun k => x0 (ix2 p k)) x1 a := by
  unfold out0_2
  rw [View.canon_unit_zero hz]
  simp only [View.ld_unit_zero (S := S1024x256) hz, View.ld_unit_zero (S := S256x512) hz]
  refine (stored_apply _ _ _ _ _ _ _ _ _ _ _ _ _ _ _ _ _ _ _ _ _ _ _ _ _ _ _ _ _ _ _ _ p a).trans ?_
  show cols x0 x1 a (ix2 p (0 : Fin 1)) = _
  rw [cols_eq, column_apply]
  unfold featRow spread
  refine Finset.sum_congr rfl fun d _ => ?_
  refine congrArg (fun z => Ideal.exp (-z)) (Finset.sum_congr rfl fun b _ => ?_)
  rw [proj_apply, proj_apply]

/-- The same at any index of the block. -/
theorem block_apply' (x0 : Vec Ideal S1024x256 .f32) (x1 : Vec Ideal S256x512 .f32) (y : S1024x32.Idx) :
    out0_2 x0 x1 y = featRow (fun k => x0 (ix2 (y 0) k)) x1 (y 1) := by
  obtain ⟨p, a, rfl⟩ : ∃ (p : Fin 1024) (a : Fin 32), y = ix2 p a := ⟨y 0, y 1, eq_ix2 y⟩
  exact block_apply x0 x1 p a

end Cert.Mbd.Kernel

end
-- ==== Proof.KernelArray.lean ====
/-
  From blocks to the whole feature array.

  Grid point `t` (of 16) works on samples `1024 t … 1024 t + 1023`: its first window is those rows of the
  flattened samples, its second the whole projection matrix, and it writes back rows
  `1024 t … 1024 t + 1023` of the `[16384, 32]` output. A feature depends on its own sample's row only,
  so what point `t` writes is exactly those rows of the feature map of ALL samples; the 16 blocks tile
  the output (row `r` lies in block `r / 1024`), so the output array ends holding the feature map.
-/
import proofs.«150669_j68582037782886_2_alg».proof.Proof.Gen.KernelIdeal.Frame
import proofs.«150669_j68582037782886_2_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Mbd.Kernel

open Cert.KernelIdeal Cert.KernelIdeal.Gen Idealize.ShloMosaic.ValueIdx

variable (m : (ℓ : Loc nD τ sig) → Buf (Elt Ideal) ℓ) (ρ : Dev nD → PrngReg)

/-- The flattened samples as the region finds them. -/
abbrev samples (c : Dev nD) : S16384x256.Idx → EReal := V m c main_v0
/-- The projection matrix as the region finds it. -/
abbrev weights (c : Dev nD) : S256x512.Idx → EReal := V m c main_arg1

/-- What the output array ends holding: the feature map of all samples. -/
abbrev result (c : Dev nD) : Buf (Elt Ideal) ((c : Thread nD τ).loc main_v1) :=
  feats (N := 16384) (samples m c) (weights m c)

theorem featRow_congr {r r' : Fin 256 → EReal} {T T' : (⟨2, ![256, 512]⟩ : Shape).Idx → EReal} {a a' : Fin 32}
    (hr : r = r') (hT : T = T') (ha : a = a') : featRow r T a = featRow r' T' a' := by
  subst hr hT ha; rfl

/-- The printed index maps over the grid: the samples' and the output's block number is the point's,
    every other block number is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of samples at `y` is row `1024 t + y₀` of the flattened samples. -/
theorem samples_block (c : Dev nD) (t : Fin cfg0.N) (y : S1024x256.Idx) (k : S16384x256.Idx)
    (hk0 : (k 0).val = t.val * 1024 + (y 0).val) (hk1 : (k 1).val = (y 1).val) :
    (iblk m c 0 t : Vec Ideal S1024x256 .f32) y = samples m c k := by
  obtain ⟨e0, e1, -, -, -, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 256 + 1 * (y 1).val = (k 1).val; rw [e1, hk1]; omega

/-- Every point's block of the projection matrix is the whole matrix. -/
theorem weights_block (c : Dev nD) (t : Fin cfg0.N) : (iblk m c 1 t : Vec Ideal S256x512 .f32) = weights m c := by
  obtain ⟨-, -, e2, e3, -, -⟩ := idx_facts t
  funext y
  unfold iblk
  rw [View.read_apply]
  show V m c main_arg1 _ = V m c main_arg1 y
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 512 + 1 * (y 1).val = (y 1).val; rw [e3]; omega

/-- What point `t` writes back is block `t` of the feature map of all samples. -/
theorem flushed_eq (c : Dev nD) (t : Fin cfg0.N) :
    (dats m 0 c).flushed 2 t = ((cfg0.win 2).blk t).view.read (Elt Ideal) (result m c) := by
  obtain ⟨-, -, -, -, e4, e5⟩ := idx_facts t
  show (cfg0.win 2).cut (grid0.coords t) ((dats m 0 c).after 2 t) = _
  rw [after0_2]
  funext j
  show out0_2 (iblk m c 0 t) (iblk m c 1 t) j = result m c (((cfg0.win 2).blk t).view.emb j)
  refine (block_apply' (iblk m c 0 t) (iblk m c 1 t) j).trans ?_
  have h0 : ((((cfg0.win 2).blk t).view.emb j) 0).val = t.val * 1024 + (j 0).val := by
    show win0_2.index t (0 : Fin 2) * 1024 + 1 * (j 0).val = _; rw [e4]; omega
  have h1 : ((((cfg0.win 2).blk t).view.emb j) 1).val = (j 1).val := by
    show win0_2.index t (1 : Fin 2) * 32 + 1 * (j 1).val = _; rw [e5]; omega
  show _ = featRow (fun k => samples m c (ix2 ((((cfg0.win 2).blk t).view.emb j) 0) k)) (weights m c) ((((cfg0.win 2).blk t).view.emb j) 1)
  exact featRow_congr
    (funext fun k => samples_block m c t (ix2 (j 0) k) (ix2 ((((cfg0.win 2).blk t).view.emb j) 0) k) h0 rfl)
    (weights_block m c t) (Fin.ext h1.symm)

/-- An index of the output is in point `t`'s block iff each coordinate is in the block's range. -/
theorem mem_blk (t : Fin cfg0.N) (i : S16384x32.Idx) :
    i ∈ ((cfg0.win 2).blk t).view.set ↔ ∀ a : Fin 2, win0_2.index t a * S1024x32.size a ≤ (i a).val
      ∧ (i a).val < win0_2.index t a * S1024x32.size a + S1024x32.size a := by
  show i ∈ ((View.whole main_v1).slice (win0_2.rect t)).set ↔ _
  rw [View.set_slice_whole, Rect.mem_set_unit]
  exact Iff.rfl

/-- Row `r` of the output lies in block `r / 1024`. -/
theorem cover (i : S16384x32.Idx) :
    ∃ t : Fin cfg0.N, (cfg0.win 2).flush t = true ∧ i ∈ ((cfg0.win 2).blk t).view.set := by
  have hN : cfg0.N = 16 := N_0
  have hi0 : (i 0).val < 16384 := (i 0).isLt
  have hi1 : (i 1).val < 32 := (i 1).isLt
  obtain ⟨t, ht⟩ : ∃ t : Fin cfg0.N, t.val = (i 0).val / 1024 := ⟨⟨(i 0).val / 1024, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 32 ≤ (i 1).val ∧ (i 1).val < win0_2.index t (1 : Fin 2) * 32 + 32
    rw [e5]; omega

/-- The output array after the run is the feature map of all samples. -/
theorem final (c : Dev nD) : (dats m 0 c).arrAt 2 cfg0.N = result m c :=
  (dats m 0 c).arrAt_eq_of_cover 2 (result m c) (fun t _ => flushed_eq m c t) cover

end Cert.Mbd.Kernel

end
-- ==== Proof.KernelRun.lean ====
/-
  The kernel program's result, through the host operations around the region.

  Before the region the host flattens the `[32, 512, 256]` samples to `[16384, 256]`; after it, the
  `[16384, 32]` feature array is viewed as `[32, 512, 32]` and joined to the samples along the last
  axis. That last step (`tail`) is the same in the reference, so it is kept as one function of the
  samples and of a feature array and never opened: the result is `tail` of the samples and of the
  feature map of the flattened samples.
-/
import proofs.«150669_j68582037782886_2_alg».proof.Proof.KernelArray
import Idealize.ShloMosaic.Lib.StableHlo.Run
import Idealize.ShloMosaic.Lib.Pipeline.FrameSuffix

noncomputable section

open Idealize.ShloMosaic Idealize.ShloMosaic.TcCoe Idealize.SL.Sem Idealize.ShloMosaic.StableHlo
open Idealize.ShloMosaic.Pipeline (Dat)

namespace Cert.Mbd.Kernel

open Cert.KernelIdeal Cert.KernelIdeal.Gen Idealize.ShloMosaic.ValueIdx

variable (m : (ℓ : Loc nD τ sig) → Buf (Elt Ideal) ℓ) (ρ : Dev nD → PrngReg)

/-- The host operations after the features are computed: view the `[16384, 32]` features as
    `[32, 512, 32]` and join them to the samples along the last axis. -/
def tail (x : S32x512x256.Idx → EReal) (f : S16384x32.Idx → EReal) : S32x512x288.Idx → EReal :=
  concatenate S32x512x288 2 [⟨S32x512x256, x⟩, ⟨S32x512x32, shapeCast S32x512x32 f shapeCasts_S16384x32_S32x512x32⟩]
    concatenates_S32x512x256_S32x512x32_S32x512x288_d2

/-- The samples the region finds are the argument, flattened by the one host operation before it. -/
theorem samples_eq (c : Dev nD) :
    samples m c = shapeCast S16384x256 (m ((c : Thread nD τ).loc main_arg0)) shapeCasts_S32x512x256_S16384x256 := by
  show StableHlo.after hostOps0 (fun b => m (c, b)) (Proc.devRef .tc main_v0) = _
  after_results
  rfl

/-- The program's result buffer after the host operations that follow the region: they read the
    samples (untouched by the region) and the region's output array (the feature map). -/
theorem tail_result (c : Dev nD) :
    Pipeline.afterTail₀ cfgs (dats m) 0 (V0 m) [hostOps1] c main_v3
      = tail (m ((c : Thread nD τ).loc main_arg0)) (result m c) := by
  have hW0 : Pipeline.withArrays (cfgs 0).spec c (V0 m c) (fun w => (dats m 0 c).arrAt w (cfgs 0).N) (Proc.devRef .tc main_arg0)
      = m ((c : Thread nD τ).loc main_arg0) :=
    (Pipeline.withArrays_of_ne spec0 c (V0 m c) _ main_arg0 (by decide)).trans (V_main_arg0 m c)
  have hW1 : Pipeline.withArrays (cfgs 0).spec c (V0 m c) (fun w => (dats m 0 c).arrAt w (cfgs 0).N) (Proc.devRef .tc main_v1)
      = result m c :=
    (Pipeline.withArrays_arr spec0 launch0.win.arr_inj c (V0 m c) _ 2).trans (final m c)
  unfold Pipeline.afterTail₀
  show StableHlo.after hostOps1 _ (Proc.devRef .tc main_v3) = _
  after_results
  rw [hW0, hW1]
  rfl

/-- The run, read: every weakly fair execution terminates with the result buffer at `tail` of the
    samples and of the feature map of the flattened samples, the two arguments unchanged. -/
theorem run : θ_run defs (onTc (τ := τ) (main (F := Ideal))) ⟨m, fun _ => 0, ρ⟩ fun r => ∀ c : Dev nD,
      r.2.mem ((c : Thread nD τ).loc main_v3)
        = tail (m ((c : Thread nD τ).loc main_arg0))
            (feats (N := 16384) (shapeCast S16384x256 (m ((c : Thread nD τ).loc main_arg0)) shapeCasts_S32x512x256_S16384x256)
              (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans
        ((tail_result m c).trans (by
          show tail _ (feats (N := 16384) (samples m c) (weights m c)) = _
          rw [samples_eq m c, show weights m c = m ((c : Thread nD τ).loc main_arg1) from V_main_arg1 m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Mbd.Kernel

end
-- ==== Proof.lean ====
/-
  The kernel computes, for each of 32 × 512 samples `x` (a row of 256 numbers) and a `256 × 512`
  projection matrix `T`, 32 features

      feat a = ∑ d, exp (− ∑ b, |M b d − M a d|),    M b d = (x · T) at column 16 b + d,

  and appends them to the sample: a `[32, 512, 288]` array. The kernel program flattens the samples,
  runs one region over 16 blocks of 1024 samples (a product in a narrower float format accumulated
  from zero, then for each kernel `a` a slice, a broadcast, a difference, an absolute value, two sums
  and an exponential, the 32 columns joined), and reshapes and joins on the host; the reference does
  the whole computation on the host through a `[16384, 32, 32, 16]` array of pairwise differences.

  On the extended reals the two agree without any condition on the inputs: a change of float format
  is the identity, both products are the same sum over the contracted axis, both reductions are the
  same sums (the initial zeros add nothing), `0 − s` is `−s`, and a feature depends on its own
  sample's row only, so the 16 blocks tile the feature map. The final reshape-and-join is the same
  function in both programs and is never opened. Nothing of the idealization was rewritten, so
  `preserves` is trivial; the frames are the generated ones, the reference's its generated run.
-/
import proofs.«150669_j68582037782886_2_alg».proof.Defs
import proofs.«150669_j68582037782886_2_alg».proof.Proof.Gen.Kernel
import proofs.«150669_j68582037782886_2_alg».proof.Proof.Gen.Kernel.Skeleton
import proofs.«150669_j68582037782886_2_alg».proof.Proof.Gen.Kernel.Launch
import proofs.«150669_j68582037782886_2_alg».proof.Proof.Gen.Kernel.Points
import proofs.«150669_j68582037782886_2_alg».proof.Proof.Gen.Kernel.Frame
import proofs.«150669_j68582037782886_2_alg».proof.Proof.Gen.KernelIdeal
import proofs.«150669_j68582037782886_2_alg».proof.Proof.Gen.KernelIdeal.Skeleton
import proofs.«150669_j68582037782886_2_alg».proof.Proof.Gen.KernelIdeal.Launch
import proofs.«150669_j68582037782886_2_alg».proof.Proof.Gen.KernelIdeal.Points
import proofs.«150669_j68582037782886_2_alg».proof.Proof.Gen.KernelIdeal.Frame
import proofs.«150669_j68582037782886_2_alg».proof.Proof.Gen.ReferenceIdeal
import proofs.«150669_j68582037782886_2_alg».proof.Proof.Gen.Pre_finite_inputs
import proofs.«150669_j68582037782886_2_alg».proof.Proof.Gen.ReferenceIdeal.Run
import proofs.«150669_j68582037782886_2_alg».proof.Proof.Gen.ReferenceIdeal.Read
import proofs.«150669_j68582037782886_2_alg».proof.Proof.RefFeatures
import proofs.«150669_j68582037782886_2_alg».proof.Proof.KernelRun
import Idealize.ShloMosaic.Adequacy
import Idealize.ShloMosaic.Init

noncomputable section

open Idealize.ShloMosaic Idealize.ShloMosaic.TcCoe Idealize.SL.Sem

namespace Cert.Proof

/-- The reference's result as a function of its two arguments is the shared tail of the samples and of
    the feature map of the flattened samples: its array of sums is the feature map (`features_eq`), and
    what follows it is the tail, operation for operation. -/
theorem reference_result (x0 : (⟨Cert.ReferenceIdeal.S32x512x256, .f32⟩ : BufTy).Contents (Elt Ideal))
    (x1 : (⟨Cert.ReferenceIdeal.S256x512, .f32⟩ : BufTy).Contents (Elt Ideal)) :
    Cert.ReferenceIdeal.Read.val_main_v14 (F := Ideal) x0 x1
      = Cert.Mbd.Kernel.tail x0 (Cert.Mbd.feats (N := 16384)
          (shapeCast Cert.KernelIdeal.S16384x256 x0 Cert.KernelIdeal.Gen.shapeCasts_S32x512x256_S16384x256) x1) := by
  unfold Cert.ReferenceIdeal.Read.val_main_v14 Cert.ReferenceIdeal.Read.val_main_v13
  rw [Cert.Mbd.Ref.features_eq]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the tail of the samples and of the feature map of the flattened samples. -/
theorem algebraic : Cert.algebraic_KernelIdeal_ReferenceIdeal := by
  intro m ρ m' ρ' _ hagree
  refine ⟨_, Cert.Mbd.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq _ _).trans (reference_result _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
